-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000x256 : Shape := ⟨2, ![800000, 256]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S800000x256 : S_.BroadcastsInDim S800000x256 (![] : Fin 0 → Fin S800000x256.rank)
  reducesTo_S800000x256_S_d0_1 : S800000x256.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg5 : FVec F S256x256 .f32) (main_arg6 : FVec F S256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_v33

def fn {F : FTy → Type} [FloatOps F] (main_arg0 : FVec F S100000x256 .f32) (main_arg1 : FVec F S800000x256 .f32) (main_arg2 : IVec S2x800000 32) (main_arg3 : FVec F S512x256 .f32) (main_arg4 : FVec F S256 .f32) (main_arg5 : FVec F S256x256 .f32) (main_arg6 : FVec F S256 .f32) (main_arg7 : FVec F S256x256 .f32) (main_arg8 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S800000x256 .f32 := Host.absf main_arg1
  let main_cst_0 : FVec F S_ .f32 := constant S_ .f32 0x7F800000#32
  let main_v5 : FVec F S800000x256 .f32 := broadcastInDim S800000x256 ![] bcast_S_S800000x256 main_cst_0
  let main_v6 : IVec S800000x256 1 := cmpf .olt main_v4 main_v5
  let main_c_1 : IVec S_ 1 := constantI S_ 1 1#1
  let main_v7 : IVec S_ 1 := (fun x v => Host.reduce IntOp.andi x v reducesTo_S800000x256_S_d0_1 h_S_) main_v6 main_c_1
  let main_v8 : IVec S_ 1 := andi main_v3 main_v7
  let main_v9 : FVec F S512x256 .f32 := Host.absf main_arg3
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_v13 main_v16
-- ==== Kernel.lean ====
abbrev S100000x256 : Shape := ⟨2, ![100000, 256]⟩
abbrev S800000x256 : Shape := ⟨2, ![800000, 256]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x256 : Shape := ⟨2, ![1, 256]⟩
abbrev S2000x256 : Shape := ⟨2, ![2000, 256]⟩

abbrev nBuf : Space → Nat
  | .hbm => 21
  | .vmem => 13
  | .smem => 0
  | _ => 0

abbrev bufTy : (tb : Table) → Fin (tcTables nBuf tb) → BufTy
  | .hbm, ⟨0, _⟩ => ⟨S100000x256, .f32⟩
  | .hbm, ⟨1, _⟩ => ⟨S800000x256, .f32⟩
  | .hbm, ⟨2, _⟩ => ⟨S2x800000, .i32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S100000x256, .f32⟩
  | .hbm, ⟨13, _⟩ => ⟨S800000x1, .i32⟩
  | .hbm, ⟨14, _⟩ => ⟨S100000x256, .f32⟩
  | .hbm, ⟨15, _⟩ => ⟨S256x256, .f32⟩
  | .hbm, ⟨16, _⟩ => ⟨S256x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S100000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S256x256, .f32⟩
  | .local _ .vmem, ⟨8, _⟩ => ⟨S1x256, .f32⟩
  | .local _ .vmem, ⟨9, _⟩ => ⟨S256x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_1_0 : S2x800000.Slices ![1, 0] S1x800000
  shapeCasts_S1x800000_S800000 : S1x800000.ShapeCasts S800000
  bcast_S_S100000x256 : S_.BroadcastsInDim S100000x256 (![] : Fin 0 → Fin S100000x256.rank)
  bcast_S800000_S800000x1_0 : S800000.BroadcastsInDim S800000x1 (![0] : Fin 1 → Fin S800000x1.rank)
  slices_S512x256_S256x256_0_0 : S512x256.Slices ![0, 0] S256x256
  slices_S512x256_S256x256_256_0 : S512x256.Slices ![256, 0] S256x256
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S100000x256_S800000x1_S800000x256_1_0_0_1_wf : ScatterDims.WF S100000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S100000x256.size a
  hwx0_9 : ∀ i : grid0.Coords, EltTy.bits .f32 = 32 ∨ (Rect.block (s := S100000x256) S2000x256.size (cc0_transform_9 i) (hinb0_9 i)).WholeWords (EltTy.packing .f32)

variable [Facts₀]

def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x256 : Shape := ⟨2, ![100000, 256]⟩
abbrev S800000x256 : Shape := ⟨2, ![800000, 256]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x512 : Shape := ⟨2, ![100000, 512]⟩
abbrev S1x256 : Shape := ⟨2, ![1, 256]⟩

abbrev nBuf : Space → Nat
  | .hbm => 34
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000x256, .f32⟩
  | .hbm, ⟨2, _⟩ => ⟨S2x800000, .i32⟩
  | .hbm, ⟨3, _⟩ => ⟨S512x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S1x800000, .i32⟩
  | .hbm, ⟨10, _⟩ => ⟨S800000, .i32⟩
  | .hbm, ⟨11, _⟩ => ⟨S_, .f32⟩
  | .hbm, ⟨12, _⟩ => ⟨S100000x256, .f32⟩
  | .hbm, ⟨13, _⟩ => ⟨S800000x1, .i32⟩
  | .hbm, ⟨14, _⟩ => ⟨S100000x256, .f32⟩
  | .hbm, ⟨15, _⟩ => ⟨S100000x512, .f32⟩
  | .hbm, ⟨16, _⟩ => ⟨S100000x256, .f32⟩
  | .hbm, ⟨17, _⟩ => ⟨S1x256, .f32⟩
  | .hbm, ⟨18, _⟩ => ⟨S100000x256, .f32⟩
  | .hbm, ⟨19, _⟩ => ⟨S100000x256, .f32⟩
  | .hbm, ⟨20, _⟩ => ⟨S_, .f32⟩
  | .hbm, ⟨21, _⟩ => ⟨S100000x256, .f32⟩
  | .hbm, ⟨22, _⟩ => ⟨S100000x256, .f32⟩
  | .hbm, ⟨23, _⟩ => ⟨S100000x256, .f32⟩
  | .hbm, ⟨24, _⟩ => ⟨S1x256, .f32⟩
  | .hbm, ⟨25, _⟩ => ⟨S100000x256, .f32⟩
  | .hbm, ⟨26, _⟩ => ⟨S100000x256, .f32⟩
  | .hbm, ⟨27, _⟩ => ⟨S_, .f32⟩
  | .hbm, ⟨28, _⟩ => ⟨S100000x256, .f32⟩
  | .hbm, ⟨29, _⟩ => ⟨S100000x256, .f32⟩
  | .hbm, ⟨30, _⟩ => ⟨S100000x256, .f32⟩
  | .hbm, ⟨31, _⟩ => ⟨S1x256, .f32⟩
  | .hbm, ⟨32, _⟩ => ⟨S100000x256, .f32⟩
  | .hbm, ⟨33, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_cst : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]

class Facts₀ : Prop where
  slices_S2x800000_S1x800000_1_0 : S2x800000.Slices ![1, 0] S1x800000
  shapeCasts_S1x800000_S800000 : S1x800000.ShapeCasts S800000
  bcast_S_S100000x256 : S_.BroadcastsInDim S100000x256 (![] : Fin 0 → Fin S100000x256.rank)
  bcast_S800000_S800000x1_0 : S800000.BroadcastsInDim S800000x1 (![0] : Fin 1 → Fin S800000x1.rank)
  concatenates_S100000x256_S100000x256_S100000x512_d1 : Shape.Concatenates [S100000x256, S100000x256] S100000x512 1
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  scatter_S100000x256_S800000x1_S800000x256_1_0_0_1_wf : ScatterDims.WF S100000x256 S800000x1 S800000x256 [1] [0] [0] 1
  dot_S100000x512_S512x256_S100000x256_1_0_0_1_n_n_wf : DotDims.WF S100000x512 S512x256 S100000x256 [1] [0] [0] [1] [] []
  dot_S100000x256_S256x256_S100000x256_1_0_0_1_n_n_wf : DotDims.WF S100000x256 S256x256 S100000x256 [1] [0] [0] [1] [] []

variable [Facts₀]

def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.RowMlp.lean ====
/-
  The mathematics of the certificate, free of any program: a three-layer perceptron applied to ONE row.

  A row of the result depends on one row `x` of the vertex features and the same row `a` of the aggregated edge
  features, both of length 256, and on the weights.  Over the extended reals, with `z` the value both programs take the
  maximum against (the same float word on both sides, so it is never evaluated here):

      h₁ j = max ((∑ k, x k · Wₐ k j  +  ∑ k, a k · Wᵦ k j) + b₁ j) z
      h₂ j = max ((∑ k, h₁ k · W₂ k j) + b₂ j) z
      out j =     (∑ k, h₂ k · W₃ k j) + b₃ j

  where `Wₐ` and `Wᵦ` are the upper and the lower 256 rows of the 512 × 256 matrix `W₁`.  The one law needed is that the
  product of the concatenated row `x ++ a` with `W₁` is that sum of two products: a sum over 512 indices splits into the sum
  over the first 256 and the sum over the last 256.  Only that `+` is commutative and associative is used, which holds on
  the extended reals without any finiteness assumption.
-/
import Idealize.ShloMosaic.PureOps.Ideal

noncomputable section

namespace Cert.RowMlp

open scoped BigOperators

/-- The value both programs take the maximum against: the float word of zero, as an extended real. -/
abbrev zeroWord : EReal := Idealize.ShloMosaic.Ideal.ofBits .f32 0x00000000#32

/-- Row `k` of the upper half of a 512-row matrix. -/
abbrev upper (k : Fin 256) : Fin 512 := ⟨k.val, by have := k.isLt; omega⟩
/-- Row `k` of the lower half of a 512-row matrix. -/
abbrev lower (k : Fin 256) : Fin 512 := ⟨256 + k.val, by have := k.isLt; omega⟩

/-- The concatenation of two rows of length 256. -/
def cat (x a : Fin 256 → EReal) (k : Fin 512) : EReal :=
  if h : k.val < 256 then x ⟨k.val, h⟩ else a ⟨k.val - 256, by have := k.isLt; omega⟩

theorem cat_upper (x a : Fin 256 → EReal) (k : Fin 256) : cat x a (upper k) = x k := by
  unfold cat; rw [dif_pos (show (upper k).val < 256 from k.isLt)]

theorem cat_lower (x a : Fin 256 → EReal) (k : Fin 256) : cat x a (lower k) = a k := by
  unfold cat
  rw [dif_neg (show ¬ (lower k).val < 256 by show ¬ 256 + k.val < 256; omega)]
  exact congrArg a (Fin.ext (by show 256 + k.val - 256 = k.val; omega))

/-- A sum over 512 indices is the sum over the first 256 plus the sum over the last 256. -/
theorem sum_split (f : Fin 512 → EReal) :
    ∑ k : Fin 512, f k = ∑ k : Fin 256, f (upper k) + ∑ k : Fin 256, f (lower k) := by
  have h := Fin.sum_univ_add (a := 256) (b := 256) f
  rw [h]
  congr 1

/-- The first layer as the kernel computes it: two products of rows of length 256, each with its own 256 × 256
    matrix, added. -/
def hidden1 (z : EReal) (x a : Fin 256 → EReal) (Wa Wb : Fin 256 → Fin 256 → EReal) (b1 : Fin 256 → EReal) (j : Fin 256) : EReal :=
  max ((∑ k : Fin 256, x k * Wa k j + ∑ k : Fin 256, a k * Wb k j) + b1 j) z

/-- The first layer as the reference computes it: one product of the concatenated row, of length 512. -/
def hidden1Cat (z : EReal) (x a : Fin 256 → EReal) (W1 : Fin 512 → Fin 256 → EReal) (b1 : Fin 256 → EReal) (j : Fin 256) : EReal :=
  max ((∑ k : Fin 512, cat x a k * W1 k j) + b1 j) z

/-- The two first layers are one function, the kernel's two matrices being the upper and the lower half of the
    reference's: split the sum over 512 and read the concatenation in each half. -/
theorem hidden1Cat_eq (z : EReal) (x a : Fin 256 → EReal) (W1 : Fin 512 → Fin 256 → EReal) (b1 : Fin 256 → EReal) :
    hidden1Cat z x a W1 b1 = hidden1 z x a (fun k => W1 (upper k)) (fun k => W1 (lower k)) b1 := by
  funext j
  unfold hidden1Cat hidden1
  rw [sum_split]
  simp only [cat_upper, cat_lower]

/-- A later layer before its maximum: a row of length 256 times a 256 × 256 matrix, plus the bias. -/
def dense (h : Fin 256 → EReal) (W : Fin 256 → Fin 256 → EReal) (b : Fin 256 → EReal) (j : Fin 256) : EReal :=
  (∑ k : Fin 256, h k * W k j) + b j

/-- The second layer. -/
def hidden2 (z : EReal) (h : Fin 256 → EReal) (W2 : Fin 256 → Fin 256 → EReal) (b2 : Fin 256 → EReal) (j : Fin 256) : EReal :=
  max (dense h W2 b2 j) z

/-- The whole perceptron on one row. -/
def mlp (z : EReal) (x a : Fin 256 → EReal) (Wa Wb : Fin 256 → Fin 256 → EReal) (b1 : Fin 256 → EReal)
    (W2 : Fin 256 → Fin 256 → EReal) (b2 : Fin 256 → EReal) (W3 : Fin 256 → Fin 256 → EReal) (b3 : Fin 256 → EReal) : Fin 256 → EReal :=
  dense (hidden2 z (hidden1 z x a Wa Wb b1) W2 b2) W3 b3

end Cert.RowMlp

end
-- ==== Proof.KernelRow.lean ====
/-
  One block of the kernel's result, read one row at a time, is the perceptron of `RowMlp`.

  The body multiplies its 2000 × 256 blocks of the vertex features and of the aggregated edge features by the two
  256 × 256 halves of the first weight matrix, adds the two products and the bias row, takes the maximum against zero,
  and repeats with the second and the third weight matrix.  At the ideal values a change of float format is the identity
  and a matrix product into a zero accumulator is the plain sum over the contracted index, so entry (p, q) of the block
  is entry q of `RowMlp.mlp` of rows `p` of the two input blocks.
-/
import proofs.«113480_j13391708029604_1_alg».proof.Proof.Gen.KernelIdeal.Value
import proofs.«113480_j13391708029604_1_alg».proof.Proof.RowMlp
import Idealize.ShloMosaic.Lib.ValueIdx
import Idealize.ShloMosaic.Lib.Pipeline.Value
import Idealize.ShloMosaic.PureOps.Ideal.Laws

noncomputable section

namespace Cert.KernelRow

open Cert.KernelIdeal Cert.KernelIdeal.Gen Idealize.ShloMosaic Idealize.ShloMosaic.ValueIdx Cert.RowMlp

/-- The dimension numbers of the body's matrix products: [2000, 256] × [256, 256], contracting the shared axis. -/
abbrev D : DotDims S2000x256 S256x256 S2000x256 := dot_S2000x256_S256x256_S2000x256_1_0_0_1_n_n

theorem lhs_0 (i : S2000x256.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs_1 (i : S2000x256.Idx) (q : D.contr.Idx) : (D.lhsIdx i q 1).val = (q ⟨0, by decide⟩).val :=
  D.lhsIdx_val_of_single rfl i q
theorem rhs_0 (i : S2000x256.Idx) (q : D.contr.Idx) : (D.rhsIdx i q 0).val = (q ⟨0, by decide⟩).val :=
  D.rhsIdx_val_of_single rfl i q
theorem rhs_1 (i : S2000x256.Idx) (q : D.contr.Idx) : (D.rhsIdx i q 1).val = (i 1).val := by
  unfold DotDims.rhsIdx
  rw [dif_neg (show ¬(1 : Fin S256x256.rank) ∈ D.rhsBatch by decide), dif_pos (show (1 : Fin S256x256.rank) ∈ D.rhsNonContracting by decide)]
  rfl

/-- A matrix product of the body into the zero accumulator, at entry (p, q): the sum over k of the left factor's entry
    (p, k) times the right factor's entry (k, q). -/
theorem matmul_row {φ₁ φ₂ : FTy} (l : FVec Ideal S2000x256 φ₁) (r : FVec Ideal S256x256 φ₂) (p : Fin 2000) (q : Fin 256) :
    matmul D none l r (constant (F := Ideal) S2000x256 .f32 0x00000000#32) (ix2 p q) = ∑ k : Fin 256, l (ix2 p k) * r (ix2 k q) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 256 rfl rfl).symm k) = ix2 k q := funext fun a => Fin.ext (by
    match a with
    | ⟨0, _⟩ => exact (rhs_0 _ _).trans hk
    | ⟨1, _⟩ => exact rhs_1 _ _)
  rw [el, er]

/-- A bias row broadcast down the 2000 rows of a block, at entry (p, q): entry q of the row. -/
theorem bias_row (b : Vec Ideal S1x256 .f32) (p : Fin 2000) (q : Fin 256) :
    broadcastTo S2000x256 (shapeCast S1x256 b shapeCasts_S1x256_S1x256) broadcasts_S1x256_S2000x256 (ix2 p q) = b (ix2 (0 : Fin 1) q) := by
  rw [shapeCast_self]
  exact broadcastTo_apply _ _ _ (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

variable (P0 P1 : Vec Ideal S2000x256 .f32) (P2 P3 : Vec Ideal S256x256 .f32) (P4 : Vec Ideal S1x256 .f32)
  (P5 : Vec Ideal S256x256 .f32) (P6 : Vec Ideal S1x256 .f32) (P7 : Vec Ideal S256x256 .f32) (P8 : Vec Ideal S1x256 .f32)

/-- The first hidden layer of a block, as the body spells it. -/
def blockHidden1 : FVec Ideal S2000x256 .f32 :=
  maximumf (addf (addf
      (matmul D none (truncf .bf16 P0 bitsLt_bf16_f32) (truncf .bf16 (shapeCast S256x256 P2 shapeCasts_S256x256_S256x256) bitsLt_bf16_f32) (constant S2000x256 .f32 0x00000000#32))
      (matmul D none (truncf .bf16 (shapeCast S2000x256 P1 shapeCasts_S2000x256_S2000x256) bitsLt_bf16_f32) (truncf .bf16 (shapeCast S256x256 P3 shapeCasts_S256x256_S256x256) bitsLt_bf16_f32) (constant S2000x256 .f32 0x00000000#32)))
      (broadcastTo S2000x256 (shapeCast S1x256 P4 shapeCasts_S1x256_S1x256) broadcasts_S1x256_S2000x256))
    (broadcast S2000x256 (Scalar.ofBits .f32 0x00000000#32))

/-- The second hidden layer of a block, from the first, as the body spells it. -/
def blockHidden2 (h : FVec Ideal S2000x256 .f32) : FVec Ideal S2000x256 .f32 :=
  maximumf (addf
      (matmul D none (truncf .bf16 h bitsLt_bf16_f32) (truncf .bf16 P5 bitsLt_bf16_f32) (constant S2000x256 .f32 0x00000000#32))
      (broadcastTo S2000x256 (shapeCast S1x256 P6 shapeCasts_S1x256_S1x256) broadcasts_S1x256_S2000x256))
    (broadcast S2000x256 (Scalar.ofBits .f32 0x00000000#32))

/-- The body's one payload is the third matrix product, of the second hidden layer. -/
theorem payload_eq : k0_pay2 (F := Ideal) P0 P1 P2 P3 P4 P5 P6 P7
    = matmul D none (truncf .bf16 (blockHidden2 P5 P6 (blockHidden1 P0 P1 P2 P3 P4)) bitsLt_bf16_f32) (truncf .bf16 P7 bitsLt_bf16_f32) (constant S2000x256 .f32 0x00000000#32) := rfl

/-- Row `p` of the block's first hidden layer. -/
theorem blockHidden1_row (p : Fin 2000) (j : Fin 256) :
    blockHidden1 P0 P1 P2 P3 P4 (ix2 p j)
      = hidden1 zeroWord (fun k => P0 (ix2 p k)) (fun k => P1 (ix2 p k)) (fun k j => P2 (ix2 k j)) (fun k j => P3 (ix2 k j))
          (fun j => P4 (ix2 (0 : Fin 1) j)) j := by
  unfold blockHidden1 hidden1
  rw [maximumf_apply, addf_apply, addf_apply, matmul_row, matmul_row, bias_row]
  simp only [shapeCast_self, truncf_apply]
  rfl

/-- Row `p` of the block's second hidden layer, from row `p` of the first. -/
theorem blockHidden2_row (h : FVec Ideal S2000x256 .f32) (p : Fin 2000) (j : Fin 256) :
    blockHidden2 P5 P6 h (ix2 p j)
      = hidden2 zeroWord (fun k => h (ix2 p k)) (fun k j => P5 (ix2 k j)) (fun j => P6 (ix2 (0 : Fin 1) j)) j := by
  unfold blockHidden2 hidden2 dense
  rw [maximumf_apply, addf_apply, matmul_row, bias_row]
  simp only [truncf_apply]
  rfl

/-- THE BLOCK IS THE PERCEPTRON, row by row: entry (p, q) of what the body leaves in the output block is entry q of
    `RowMlp.mlp` of rows `p` of the two input blocks. -/
theorem block_row (p : Fin 2000) (q : Fin 256) :
    Cert.KernelIdeal.Value.E9 (F := Ideal) P0 P1 P2 P3 P4 P5 P6 P7 P8 (ix2 p q)
      = mlp zeroWord (fun k => P0 (ix2 p k)) (fun k => P1 (ix2 p k)) (fun k j => P2 (ix2 k j)) (fun k j => P3 (ix2 k j))
          (fun j => P4 (ix2 (0 : Fin 1) j)) (fun k j => P5 (ix2 k j)) (fun j => P6 (ix2 (0 : Fin 1) j))
          (fun k j => P7 (ix2 k j)) (fun j => P8 (ix2 (0 : Fin 1) j)) q := by
  have e0 : Cert.KernelIdeal.Value.ix9_0 (ix2 p q) = ix2 p q :=
    funext fun a => Fin.ext (by match a with | ⟨0, _⟩ => rfl | ⟨1, _⟩ => rfl)
  have e1 : Cert.KernelIdeal.Value.ix9_1 (ix2 p q) = ix2 (0 : Fin 1) q :=
    funext fun a => Fin.ext (by match a with | ⟨0, _⟩ => rfl | ⟨1, _⟩ => rfl)
  show FloatOps.addf (k0_pay2 (F := Ideal) P0 P1 P2 P3 P4 P5 P6 P7 (Cert.KernelIdeal.Value.ix9_0 (ix2 p q))) (P8 (Cert.KernelIdeal.Value.ix9_1 (ix2 p q))) = _
  rw [e0, e1, payload_eq, matmul_row]
  unfold mlp dense
  simp only [truncf_apply, blockHidden2_row, blockHidden1_row]
  rfl

end Cert.KernelRow

end
-- ==== Proof.KernelArray.lean ====
/-
  What one grid point reads, and what it leaves in its output block.

  Grid point t (of 50) reads rows 2000·t … 2000·t + 1999 of the vertex features and of the aggregated edge features, and
  reads whole the two halves of the first weight matrix, the second and the third weight matrix, and the three bias rows.  So entry (p, k) of either row-tiled input block is entry
  (2000·t + p, k) of its array, and every entry of the seven other blocks is the same entry of its array.  Whatever the
  nine input blocks hold, entry (p, q) of the output block the body leaves is the perceptron of `RowMlp` of rows p of the
  first two.
-/
import proofs.«113480_j13391708029604_1_alg».proof.Proof.Gen.KernelIdeal.Value
import proofs.«113480_j13391708029604_1_alg».proof.Proof.KernelRow
import Idealize.ShloMosaic.Lib.ValueIdx
import Idealize.ShloMosaic.Lib.Pipeline.Value

noncomputable section

namespace Cert.KernelArray

open Cert.KernelIdeal Cert.KernelIdeal.Gen Cert.KernelIdeal.Value Idealize.ShloMosaic Idealize.ShloMosaic.TcCoe Idealize.SL.Sem
open Idealize.ShloMosaic.ValueIdx Cert.RowMlp
open Idealize.ShloMosaic.Pipeline (Dat)

theorem hz : (![0, 0] : Fin 2 → Nat) = fun _ => 0 := funext fun a => by fin_cases a <;> rfl

/-- What the body leaves in the output block, from ANY nine input blocks: entry (p, q) is the perceptron of rows `p`. -/
theorem out_block (x0 x1 : Vec Ideal S2000x256 .f32) (x2 x3 : Vec Ideal S256x256 .f32) (x4 : Vec Ideal S1x256 .f32)
    (x5 : Vec Ideal S256x256 .f32) (x6 : Vec Ideal S1x256 .f32) (x7 : Vec Ideal S256x256 .f32) (x8 : Vec Ideal S1x256 .f32)
    (p : Fin 2000) (q : Fin 256) :
    out0_9 (F := Ideal) x0 x1 x2 x3 x4 x5 x6 x7 x8 (ix2 p q)
      = mlp zeroWord (fun k => x0 (ix2 p k)) (fun k => x1 (ix2 p k)) (fun k j => x2 (ix2 k j)) (fun k j => x3 (ix2 k j))
          (fun j => x4 (ix2 (0 : Fin 1) j)) (fun k j => x5 (ix2 k j)) (fun j => x6 (ix2 (0 : Fin 1) j))
          (fun k j => x7 (ix2 k j)) (fun j => x8 (ix2 (0 : Fin 1) j)) q := by
  unfold out0_9
  simp only [View.ld_unit_zero (S := S2000x256) hz, View.ld_unit_zero (S := S256x256) hz, View.ld_unit_zero (S := S1x256) hz]
  rw [canon9_eq, Cert.KernelRow.block_row]

/-- The printed index maps, decided over the 50 grid points: the three row-tiled windows are at block (t, 0), the seven
    others at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0) :=
  (by decide +kernel : ∀ t : Fin grid0.N, _)

variable (m : (ℓ : Loc nD τ sig) → Buf (Elt Ideal) ℓ) (ρ : Dev nD → PrngReg)

/-- Entry (p, k) of the vertex features' block at point `t` is entry (2000·t + p, k) of the array. -/
theorem blk0 (c : Dev nD) (t : Fin cfg0.N) (p : Fin 2000) (k : Fin 256) (r : Fin 100000) (hr : r.val = t.val * 2000 + p.val) :
    (iblk m c 0 t : Vec Ideal S2000x256 .f32) (ix2 p k) = (V m c main_arg0 : S100000x256.Idx → Elt Ideal .f32) (ix2 r k) := by
  obtain ⟨⟨e0, e1⟩, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- Entry (p, k) of the aggregated edge features' block at point `t` is entry (2000·t + p, k) of the array. -/
theorem blk1 (c : Dev nD) (t : Fin cfg0.N) (p : Fin 2000) (k : Fin 256) (r : Fin 100000) (hr : r.val = t.val * 2000 + p.val) :
    (iblk m c 1 t : Vec Ideal S2000x256 .f32) (ix2 p k) = (V m c main_v4 : S100000x256.Idx → Elt Ideal .f32) (ix2 r k) := by
  obtain ⟨-, ⟨e0, e1⟩, -⟩ := idx_facts t
  unfold iblk
  rw [View.read_apply]
  show V m c main_v4 _ = V m c main_v4 _
  refine congrArg (V m c main_v4) (funext fun a => Fin.ext ?_)
  match a with
  | ⟨0, _⟩ => show win0_1.index t (0 : Fin 2) * 2000 + 1 * p.val = r.val; rw [e0, hr]; omega
  | ⟨1, _⟩ => show win0_1.index t (1 : Fin 2) * 256 + 1 * k.val = k.val; rw [e1]; omega

/-- The upper half of the first weight matrix is read whole at every point. -/
theorem blk2 (c : Dev nD) (t : Fin cfg0.N) (k : Fin 256) (j : Fin 256) :
    (iblk m c 2 t : Vec Ideal S256x256 .f32) (ix2 k j) = (V m c main_v5 : S256x256.Idx → Elt Ideal .f32) (ix2 k j) := by
  obtain ⟨-, -, ⟨e0, e1⟩, -⟩ := idx_facts t
  unfold iblk
  rw [View.read_apply]
  show V m c main_v5 _ = V m c main_v5 _
  refine congrArg (V m c main_v5) (funext fun a => Fin.ext ?_)
  match a with
  | ⟨0, _⟩ => show win0_2.index t (0 : Fin 2) * 256 + 1 * k.val = k.val; rw [e0]; omega
  | ⟨1, _⟩ => show win0_2.index t (1 : Fin 2) * 256 + 1 * j.val = j.val; rw [e1]; omega

/-- The lower half of the first weight matrix is read whole at every point. -/
theorem blk3 (c : Dev nD) (t : Fin cfg0.N) (k : Fin 256) (j : Fin 256) :
    (iblk m c 3 t : Vec Ideal S256x256 .f32) (ix2 k j) = (V m c main_v6 : S256x256.Idx → Elt Ideal .f32) (ix2 k j) := by
  obtain ⟨-, -, -, ⟨e0, e1⟩, -⟩ := idx_facts t
  unfold iblk
  rw [View.read_apply]
  show V m c main_v6 _ = V m c main_v6 _
  refine congrArg (V m c main_v6) (funext fun a => Fin.ext ?_)
  match a with
  | ⟨0, _⟩ => show win0_3.index t (0 : Fin 2) * 256 + 1 * k.val = k.val; rw [e0]; omega
  | ⟨1, _⟩ => show win0_3.index t (1 : Fin 2) * 256 + 1 * j.val = j.val; rw [e1]; omega

/-- The first bias row is read whole at every point. -/
theorem blk4 (c : Dev nD) (t : Fin cfg0.N) (k : Fin 1) (j : Fin 256) :
    (iblk m c 4 t : Vec Ideal S1x256 .f32) (ix2 k j) = (V m c main_v7 : S1x256.Idx → Elt Ideal .f32) (ix2 k j) := by
  obtain ⟨-, -, -, -, ⟨e0, e1⟩, -⟩ := idx_facts t
  unfold iblk
  rw [View.read_apply]
  show V m c main_v7 _ = V m c main_v7 _
  refine congrArg (V m c main_v7) (funext fun a => Fin.ext ?_)
  match a with
  | ⟨0, _⟩ => show win0_4.index t (0 : Fin 2) * 1 + 1 * k.val = k.val; rw [e0]; omega
  | ⟨1, _⟩ => show win0_4.index t (1 : Fin 2) * 256 + 1 * j.val = j.val; rw [e1]; omega

/-- The second weight matrix is read whole at every point. -/
theorem blk5 (c : Dev nD) (t : Fin cfg0.N) (k : Fin 256) (j : Fin 256) :
    (iblk m c 5 t : Vec Ideal S256x256 .f32) (ix2 k j) = (V m c main_arg5 : S256x256.Idx → Elt Ideal .f32) (ix2 k j) := by
  obtain ⟨-, -, -, -, -, ⟨e0, e1⟩, -⟩ := idx_facts t
  unfold iblk
  rw [View.read_apply]
  show V m c main_arg5 _ = V m c main_arg5 _
  refine congrArg (V m c main_arg5) (funext fun a => Fin.ext ?_)
  match a with
  | ⟨0, _⟩ => show win0_5.index t (0 : Fin 2) * 256 + 1 * k.val = k.val; rw [e0]; omega
  | ⟨1, _⟩ => show win0_5.index t (1 : Fin 2) * 256 + 1 * j.val = j.val; rw [e1]; omega

/-- The second bias row is read whole at every point. -/
theorem blk6 (c : Dev nD) (t : Fin cfg0.N) (k : Fin 1) (j : Fin 256) :
    (iblk m c 6 t : Vec Ideal S1x256 .f32) (ix2 k j) = (V m c main_v8 : S1x256.Idx → Elt Ideal .f32) (ix2 k j) := by
  obtain ⟨-, -, -, -, -, -, ⟨e0, e1⟩, -⟩ := idx_facts t
  unfold iblk
  rw [View.read_apply]
  show V m c main_v8 _ = V m c main_v8 _
  refine congrArg (V m c main_v8) (funext fun a => Fin.ext ?_)
  match a with
  | ⟨0, _⟩ => show win0_6.index t (0 : Fin 2) * 1 + 1 * k.val = k.val; rw [e0]; omega
  | ⟨1, _⟩ => show win0_6.index t (1 : Fin 2) * 256 + 1 * j.val = j.val; rw [e1]; omega

/-- The third weight matrix is read whole at every point. -/
theorem blk7 (c : Dev nD) (t : Fin cfg0.N) (k : Fin 256) (j : Fin 256) :
    (iblk m c 7 t : Vec Ideal S256x256 .f32) (ix2 k j) = (V m c main_arg7 : S256x256.Idx → Elt Ideal .f32) (ix2 k j) := by
  obtain ⟨-, -, -, -, -, -, -, ⟨e0, e1⟩, -⟩ := idx_facts t
  unfold iblk
  rw [View.read_apply]
  show V m c main_arg7 _ = V m c main_arg7 _
  refine congrArg (V m c main_arg7) (funext fun a => Fin.ext ?_)
  match a with
  | ⟨0, _⟩ => show win0_7.index t (0 : Fin 2) * 256 + 1 * k.val = k.val; rw [e0]; omega
  | ⟨1, _⟩ => show win0_7.index t (1 : Fin 2) * 256 + 1 * j.val = j.val; rw [e1]; omega

/-- The third bias row is read whole at every point. -/
theorem blk8 (c : Dev nD) (t : Fin cfg0.N) (k : Fin 1) (j : Fin 256) :
    (iblk m c 8 t : Vec Ideal S1x256 .f32) (ix2 k j) = (V m c main_v9 : S1x256.Idx → Elt Ideal .f32) (ix2 k j) := by
  obtain ⟨-, -, -, -, -, -, -, -, ⟨e0, e1⟩, -⟩ := idx_facts t
  unfold iblk
  rw [View.read_apply]
  show V m c main_v9 _ = V m c main_v9 _
  refine congrArg (V m c main_v9) (funext fun a => Fin.ext ?_)
  match a with
  | ⟨0, _⟩ => show win0_8.index t (0 : Fin 2) * 1 + 1 * k.val = k.val; rw [e0]; omega
  | ⟨1, _⟩ => show win0_8.index t (1 : Fin 2) * 256 + 1 * j.val = j.val; rw [e1]; omega

end Cert.KernelArray

end
-- ==== Proof.KernelFinal.lean ====
/-
  From blocks to the array: the kernel's result array after the run, as ONE function of the arrays the region finds.

  Grid point t (of 50) writes rows 2000·t … 2000·t + 1999 of the result.  Entry (p, q) of the block it writes is the
  perceptron of rows p of its two row-tiled input blocks, which are rows 2000·t + p of the vertex features and of the
  aggregated edge features; the weight matrices and the bias rows are read whole at every point.  The 50 blocks tile the
  100000 rows, so the entry at row r is written by point r / 2000 and by no other, and the array ends holding the
  perceptron of every row.
-/
import proofs.«113480_j13391708029604_1_alg».proof.Proof.Gen.KernelIdeal.Value
import proofs.«113480_j13391708029604_1_alg».proof.Proof.KernelRow
import proofs.«113480_j13391708029604_1_alg».proof.Proof.KernelArray
import Idealize.ShloMosaic.Lib.ValueIdx
import Idealize.ShloMosaic.Lib.Pipeline.Value

noncomputable section

namespace Cert.KernelFinal

open Cert.KernelIdeal Cert.KernelIdeal.Gen Cert.KernelIdeal.Value Idealize.ShloMosaic Idealize.ShloMosaic.TcCoe Idealize.SL.Sem
open Idealize.ShloMosaic.ValueIdx Cert.RowMlp Cert.KernelArray
open Idealize.ShloMosaic.Pipeline (Dat)

variable (m : (ℓ : Loc nD τ sig) → Buf (Elt Ideal) ℓ) (ρ : Dev nD → PrngReg)

/-- The result array as ONE function of the nine arrays the region finds: entry (r, q) is the perceptron of rows `r` of
    the first two, with the weight matrices and the bias rows read whole. -/
def G (A0 A1 : S100000x256.Idx → Elt Ideal .f32) (A2 A3 : S256x256.Idx → Elt Ideal .f32) (A4 : S1x256.Idx → Elt Ideal .f32)
    (A5 : S256x256.Idx → Elt Ideal .f32) (A6 : S1x256.Idx → Elt Ideal .f32) (A7 : S256x256.Idx → Elt Ideal .f32)
    (A8 : S1x256.Idx → Elt Ideal .f32) : S100000x256.Idx → Elt Ideal .f32 :=
  fun i => mlp zeroWord (fun k => A0 (ix2 (⟨(i 0).val, idx2_lt0 i⟩ : Fin 100000) k)) (fun k => A1 (ix2 (⟨(i 0).val, idx2_lt0 i⟩ : Fin 100000) k))
    (fun k j => A2 (ix2 k j)) (fun k j => A3 (ix2 k j)) (fun j => A4 (ix2 (0 : Fin 1) j)) (fun k j => A5 (ix2 k j))
    (fun j => A6 (ix2 (0 : Fin 1) j)) (fun k j => A7 (ix2 k j)) (fun j => A8 (ix2 (0 : Fin 1) j)) (⟨(i 1).val, idx2_lt1 i⟩ : Fin 256)

theorem G_apply (A0 A1 : S100000x256.Idx → Elt Ideal .f32) (A2 A3 : S256x256.Idx → Elt Ideal .f32) (A4 : S1x256.Idx → Elt Ideal .f32)
    (A5 : S256x256.Idx → Elt Ideal .f32) (A6 : S1x256.Idx → Elt Ideal .f32) (A7 : S256x256.Idx → Elt Ideal .f32)
    (A8 : S1x256.Idx → Elt Ideal .f32) (r : Fin 100000) (q : Fin 256) :
    G A0 A1 A2 A3 A4 A5 A6 A7 A8 (ix2 r q)
      = mlp zeroWord (fun k => A0 (ix2 r k)) (fun k => A1 (ix2 r k)) (fun k j => A2 (ix2 k j)) (fun k j => A3 (ix2 k j))
          (fun j => A4 (ix2 (0 : Fin 1) j)) (fun k j => A5 (ix2 k j)) (fun j => A6 (ix2 (0 : Fin 1) j))
          (fun k j => A7 (ix2 k j)) (fun j => A8 (ix2 (0 : Fin 1) j)) q := rfl

/-- `G` of the arrays as the region finds them on core `c`. -/
abbrev result (c : Dev nD) : S100000x256.Idx → Elt Ideal .f32 :=
  G (V m c main_arg0) (V m c main_v4) (V m c main_v5) (V m c main_v6) (V m c main_v7) (V m c main_arg5) (V m c main_v8)
    (V m c main_arg7) (V m c main_v9)

/-- Entry (p, q) of the output block at point `t` sits at entry (2000·t + p, q) of the result array. -/
theorem emb9 (t : Fin cfg0.N) (p : Fin 2000) (q : Fin 256) (r : Fin 100000) (hr : r.val = t.val * 2000 + p.val) :
    ((cfg0.win 9).blk t).view.emb (ix2 p q) = (ix2 r q : S100000x256.Idx) := by
  obtain ⟨-, -, -, -, -, -, -, -, -, ⟨e0, e1⟩⟩ := idx_facts t
  funext a
  apply Fin.ext
  match a with
  | ⟨0, _⟩ => show win0_9.index t (0 : Fin 2) * 2000 + 1 * p.val = r.val; rw [e0, hr]; omega
  | ⟨1, _⟩ => show win0_9.index t (1 : Fin 2) * 256 + 1 * q.val = q.val; rw [e1]; omega

/-- WHAT POINT `t` WRITES BACK is block `t` of `result`: entry (p, q) of the block is the perceptron of rows `p` of the input
    blocks, and each input block's entry is the array's entry under it. -/
theorem flushed_eq (c : Dev nD) (t : Fin cfg0.N) :
    (dats m 0 c).flushed 9 t = ((cfg0.win 9).blk t).view.read (Elt Ideal) (result m c) := by
  rw [flushed9]
  refine funext fun (y : S2000x256.Idx) => ?_
  obtain ⟨p, q, rfl⟩ : ∃ (p : Fin 2000) (q : Fin 256), y = ix2 p q := ⟨y 0, y 1, eq_ix2 y⟩
  have ht : t.val < 50 := lt_of_lt_of_eq t.isLt N_0
  have hp := p.isLt
  obtain ⟨r, hr⟩ : ∃ r : Fin 100000, r.val = t.val * 2000 + p.val := ⟨⟨t.val * 2000 + p.val, by omega⟩, rfl⟩
  show out0_9 (iblk m c 0 t) (iblk m c 1 t) (iblk m c 2 t) (iblk m c 3 t) (iblk m c 4 t) (iblk m c 5 t) (iblk m c 6 t) (iblk m c 7 t) (iblk m c 8 t) (ix2 p q)
    = result m c (((cfg0.win 9).blk t).view.emb (ix2 p q))
  rw [emb9 t p q r hr]
  refine (out_block _ _ _ _ _ _ _ _ _ p q).trans ?_
  refine Eq.trans ?_ (G_apply _ _ _ _ _ _ _ _ _ r q).symm
  have h0 : (fun k => (iblk m c 0 t : Vec Ideal S2000x256 .f32) (ix2 p k)) = fun k => (V m c main_arg0 : S100000x256.Idx → Elt Ideal .f32) (ix2 r k) :=
    funext fun k => blk0 m c t p k r hr
  have h1 : (fun k => (iblk m c 1 t : Vec Ideal S2000x256 .f32) (ix2 p k)) = fun k => (V m c main_v4 : S100000x256.Idx → Elt Ideal .f32) (ix2 r k) :=
    funext fun k => blk1 m c t p k r hr
  have h2 : (fun k j => (iblk m c 2 t : Vec Ideal S256x256 .f32) (ix2 k j)) = fun k j => (V m c main_v5 : S256x256.Idx → Elt Ideal .f32) (ix2 k j) :=
    funext fun k => funext fun j => blk2 m c t k j
  have h3 : (fun k j => (iblk m c 3 t : Vec Ideal S256x256 .f32) (ix2 k j)) = fun k j => (V m c main_v6 : S256x256.Idx → Elt Ideal .f32) (ix2 k j) :=
    funext fun k => funext fun j => blk3 m c t k j
  have h4 : (fun j => (iblk m c 4 t : Vec Ideal S1x256 .f32) (ix2 (0 : Fin 1) j)) = fun j => (V m c main_v7 : S1x256.Idx → Elt Ideal .f32) (ix2 (0 : Fin 1) j) :=
    funext fun j => blk4 m c t 0 j
  have h5 : (fun k j => (iblk m c 5 t : Vec Ideal S256x256 .f32) (ix2 k j)) = fun k j => (V m c main_arg5 : S256x256.Idx → Elt Ideal .f32) (ix2 k j) :=
    funext fun k => funext fun j => blk5 m c t k j
  have h6 : (fun j => (iblk m c 6 t : Vec Ideal S1x256 .f32) (ix2 (0 : Fin 1) j)) = fun j => (V m c main_v8 : S1x256.Idx → Elt Ideal .f32) (ix2 (0 : Fin 1) j) :=
    funext fun j => blk6 m c t 0 j
  have h7 : (fun k j => (iblk m c 7 t : Vec Ideal S256x256 .f32) (ix2 k j)) = fun k j => (V m c main_arg7 : S256x256.Idx → Elt Ideal .f32) (ix2 k j) :=
    funext fun k => funext fun j => blk7 m c t k j
  have h8 : (fun j => (iblk m c 8 t : Vec Ideal S1x256 .f32) (ix2 (0 : Fin 1) j)) = fun j => (V m c main_v9 : S1x256.Idx → Elt Ideal .f32) (ix2 (0 : Fin 1) j) :=
    funext fun j => blk8 m c t 0 j
  rw [h0, h1, h2, h3, h4, h5, h6, h7, h8]

/-- An entry of the array is in point `t`'s block iff each coordinate is in the block's range on its axis. -/
theorem mem_blk9 (t : Fin cfg0.N) (i : S100000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v10).slice (win0_9.rect t)).set ↔ _
  rw [View.set_slice_whole, Rect.mem_set_unit]
  exact Iff.rfl

/-- Every entry is in the block of the point that covers its row: row `r` is written at point `r / 2000`. -/
theorem cover (i : S100000x256.Idx) : ∃ t : Fin cfg0.N, (cfg0.win 9).flush t = true ∧ i ∈ ((cfg0.win 9).blk t).view.set := by
  have hi0 : (i 0).val < 100000 := (i 0).isLt
  have hi1 : (i 1).val < 256 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, -, -, -, -, -, -, -, ⟨e0, e1⟩⟩ := idx_facts t
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 256 ≤ (i 1).val ∧ (i 1).val < win0_9.index t (1 : Fin 2) * 256 + 256; rw [e1]; omega

/-- THE ARRAY after the run is `result`. -/
theorem final (c : Dev nD) : (dats m 0 c).arrAt 9 cfg0.N = result m c :=
  (dats m 0 c).arrAt_eq_of_cover 9 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelFinal

end
-- ==== Proof.KernelHost.lean ====
/-
  What the region finds in the windows that host operations wrote before it.

  Six of the kernel's nine input windows are not arguments but values computed on the host first: the aggregated edge
  features (the scatter-add of the edge features' rows into the receiving vertices' rows, starting from zero), the upper and
  the lower 256 rows of the first weight matrix, and the three bias vectors re-laid as 1 × 256 rows.  The aggregation is
  kept as ONE term of the arguments and never opened: the reference computes the same term.  The others are read at an
  entry: entry (k, j) of the upper half is entry (k, j) of the matrix, of the lower half entry (256 + k, j); entry (0, j) of a
  bias row is entry j of the bias.
-/
import proofs.«113480_j13391708029604_1_alg».proof.Proof.Gen.KernelIdeal.Frame
import proofs.«113480_j13391708029604_1_alg».proof.Proof.RowMlp
import Idealize.ShloMosaic.Lib.StableHlo.Run
import Idealize.ShloMosaic.Lib.ValueIdx
import Idealize.ShloMosaic.Lib.ValueLayout
import Idealize.ShloMosaic.Lib.Pipeline.Value

noncomputable section

namespace Cert.KernelHost

open Cert.KernelIdeal Cert.KernelIdeal.Gen Idealize.ShloMosaic Idealize.ShloMosaic.TcCoe Idealize.SL.Sem Idealize.ShloMosaic.StableHlo
open Idealize.ShloMosaic.ValueIdx Cert.RowMlp

/-- The aggregated edge features as the kernel's program computes them: row `edge_index[1, e]` of a zero array receives
    row `e` of the edge features, added, for every edge `e`. -/
def aggr (x1 : (⟨S800000x256, .f32⟩ : BufTy).Contents (Elt Ideal)) (x2 : (⟨S2x800000, .i32⟩ : BufTy).Contents (Elt Ideal)) :
    (⟨S100000x256, .f32⟩ : BufTy).Contents (Elt Ideal) :=
  Host.scatterAdd scatter_S100000x256_S800000x1_S800000x256_1_0_0_1
    (broadcastInDim S100000x256 ![] bcast_S_S100000x256 (constant (F := Ideal) S_ .f32 0x00000000#32))
    (broadcastInDim S800000x1 ![0] bcast_S800000_S800000x1_0
      (shapeCast _ (extractStridedSlice S1x800000 ![1, 0] x2 slices_S2x800000_S1x800000_1_0) shapeCasts_S1x800000_S800000))
    x1

variable (m : (ℓ : Loc nD τ sig) → Buf (Elt Ideal) ℓ)

/-- The second window's array is the aggregation of the arguments. -/
theorem V_aggr (c : Dev nD) :
    (V m c main_v4 : S100000x256.Idx → Elt Ideal .f32) = aggr (m ((c.tc : Thread nD τ).loc main_arg1)) (m ((c.tc : Thread nD τ).loc main_arg2)) := by
  dsimp only [Gen.V, Gen.hostOps0]; after_results <;> rfl

/-- The third window's array is the upper half of the first weight matrix. -/
theorem V_upper (c : Dev nD) (k j : Fin 256) :
    (V m c main_v5 : S256x256.Idx → Elt Ideal .f32) (ix2 k j)
      = (m ((c.tc : Thread nD τ).loc main_arg3) : S512x256.Idx → Elt Ideal .f32) (ix2 (upper k) j) := by
  have e : (V m c main_v5 : S256x256.Idx → Elt Ideal .f32)
      = extractStridedSlice S256x256 ![0, 0] (m ((c.tc : Thread nD τ).loc main_arg3)) slices_S512x256_S256x256_0_0 := by
    dsimp only [Gen.V, Gen.hostOps0]; after_results <;> rfl
  rw [e]
  exact slice2_axis0_apply 0 _ _ k j (upper k) (by show k.val = 0 + k.val; omega)

/-- The fourth window's array is the lower half of the first weight matrix. -/
theorem V_lower (c : Dev nD) (k j : Fin 256) :
    (V m c main_v6 : S256x256.Idx → Elt Ideal .f32) (ix2 k j)
      = (m ((c.tc : Thread nD τ).loc main_arg3) : S512x256.Idx → Elt Ideal .f32) (ix2 (lower k) j) := by
  have e : (V m c main_v6 : S256x256.Idx → Elt Ideal .f32)
      = extractStridedSlice S256x256 ![256, 0] (m ((c.tc : Thread nD τ).loc main_arg3)) slices_S512x256_S256x256_256_0 := by
    dsimp only [Gen.V, Gen.hostOps0]; after_results <;> rfl
  rw [e]
  exact slice2_axis0_apply 256 _ _ k j (lower k) rfl

/-- The fifth window's array is the first bias as a row. -/
theorem V_bias1 (c : Dev nD) (j : Fin 256) :
    (V m c main_v7 : S1x256.Idx → Elt Ideal .f32) (ix2 (0 : Fin 1) j)
      = (m ((c.tc : Thread nD τ).loc main_arg4) : S256.Idx → Elt Ideal .f32) (ix1 j) := by
  have e : (V m c main_v7 : S1x256.Idx → Elt Ideal .f32)
      = shapeCast _ (m ((c.tc : Thread nD τ).loc main_arg4)) shapeCasts_S256_S1x256 := by
    dsimp only [Gen.V, Gen.hostOps0]; after_results <;> rfl
  rw [e]
  exact shapeCast_a_1a_apply _ _ 0 j

/-- The seventh window's array is the second bias as a row. -/
theorem V_bias2 (c : Dev nD) (j : Fin 256) :
    (V m c main_v8 : S1x256.Idx → Elt Ideal .f32) (ix2 (0 : Fin 1) j)
      = (m ((c.tc : Thread nD τ).loc main_arg6) : S256.Idx → Elt Ideal .f32) (ix1 j) := by
  have e : (V m c main_v8 : S1x256.Idx → Elt Ideal .f32)
      = shapeCast _ (m ((c.tc : Thread nD τ).loc main_arg6)) shapeCasts_S256_S1x256 := by
    dsimp only [Gen.V, Gen.hostOps0]; after_results <;> rfl
  rw [e]
  exact shapeCast_a_1a_apply _ _ 0 j

/-- The ninth window's array is the third bias as a row. -/
theorem V_bias3 (c : Dev nD) (j : Fin 256) :
    (V m c main_v9 : S1x256.Idx → Elt Ideal .f32) (ix2 (0 : Fin 1) j)
      = (m ((c.tc : Thread nD τ).loc main_arg8) : S256.Idx → Elt Ideal .f32) (ix1 j) := by
  have e : (V m c main_v9 : S1x256.Idx → Elt Ideal .f32)
      = shapeCast _ (m ((c.tc : Thread nD τ).loc main_arg8)) shapeCasts_S256_S1x256 := by
    dsimp only [Gen.V, Gen.hostOps0]; after_results <;> rfl
  rw [e]
  exact shapeCast_a_1a_apply _ _ 0 j

end Cert.KernelHost

end
-- ==== Proof.RefRow.lean ====
/-
  The reference's result, read one row at a time, is the perceptron of `RowMlp`.

  Entry (p, q) of the reference's result is a sum over k of entry (p, k) of the second hidden layer times entry (k, q) of
  the third weight matrix, plus the bias; entry (p, k) of a hidden layer depends on row p of the layer before only.  So
  row p of every stage is a function of row p of the vertex features and row p of the aggregated edge features, and the
  stages compose to `RowMlp.mlp` with the first layer in its concatenated form.
-/
import proofs.«113480_j13391708029604_1_alg».proof.Proof.Gen.ReferenceIdeal.Read
import proofs.«113480_j13391708029604_1_alg».proof.Proof.RowMlp
import Idealize.ShloMosaic.Lib.ValueIdx
import Idealize.ShloMosaic.Lib.Pipeline.Value

noncomputable section

namespace Cert.RefRow

open Cert.ReferenceIdeal Cert.ReferenceIdeal.Read Idealize.ShloMosaic Idealize.ShloMosaic.ValueIdx Cert.RowMlp

variable (x0 : (⟨S100000x256, .f32⟩ : BufTy).Contents (Elt Ideal)) (x1 : (⟨S800000x256, .f32⟩ : BufTy).Contents (Elt Ideal))
  (x2 : (⟨S2x800000, .i32⟩ : BufTy).Contents (Elt Ideal)) (x3 : (⟨S512x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal)) (x7 : (⟨S256x256, .f32⟩ : BufTy).Contents (Elt Ideal))
  (x8 : (⟨S256, .f32⟩ : BufTy).Contents (Elt Ideal))

/-- Row `p` of the concatenation of the vertex features with the aggregated edge features is the concatenation of
    their rows `p`. -/
theorem concat_row (p : Fin 100000) (k : Fin 512) :
    val_main_v5 (F := Ideal) x0 x1 x2 (ix2 p k)
      = cat (fun k => x0 (ix2 p k)) (fun k => val_main_v4 (F := Ideal) x1 x2 (ix2 p k)) k := by
  unfold val_main_v5 cat
  by_cases h : k.val < 256
  · rw [dif_pos h]
    exact concatenate_pair_apply_left (t := S100000x512) (s₁ := S100000x256) (s₂ := S100000x256) (1 : Fin 2) _ _ _ (ix2 p k) rfl (ix2 p ⟨k.val, h⟩)
      (fun b => match b with | ⟨0, _⟩ => rfl | ⟨1, _⟩ => rfl)
  · rw [dif_neg h]
    have hk := k.isLt
    exact concatenate_pair_apply_right (t := S100000x512) (s₁ := S100000x256) (s₂ := S100000x256) (1 : Fin 2) _ _ _ (ix2 p k) rfl rfl (ix2 p ⟨k.val - 256, by omega⟩)
      (fun b hb => match b, hb with | ⟨0, _⟩, _ => rfl | ⟨1, _⟩, hb => absurd rfl hb)
      (by show k.val - 256 + 256 = k.val; omega)

/-- Row `p` of the first hidden layer: the concatenated row times the first weight matrix, plus the bias, against zero. -/
theorem hidden1_row (p : Fin 100000) (j : Fin 256) :
    val_main_v10 (F := Ideal) x0 x1 x2 x3 x4 (ix2 p j)
      = hidden1Cat zeroWord (fun k => x0 (ix2 p k)) (fun k => val_main_v4 (F := Ideal) x1 x2 (ix2 p k))
          (fun k j => x3 (ix2 k j)) (fun j => x4 (ix1 j)) j := by
  rw [val_main_v10_apply, val_main_v9_apply, val_main_v6_apply, val_main_v8_apply, val_main_v7_apply,
    val_main_call0_v0_apply, val_main_call0_cst_apply]
  have e1 : ∀ k, lidx_main_v6 (ix2 p j) k = ix2 p k :=
    fun k => funext fun a => Fin.ext (by match a with | ⟨0, _⟩ => rfl | ⟨1, _⟩ => rfl)
  have e2 : ∀ k, ridx_main_v6 (ix2 p j) k = ix2 k j :=
    fun k => funext fun a => Fin.ext (by match a with | ⟨0, _⟩ => rfl | ⟨1, _⟩ => rfl)
  have e3 : idx_main_v7 (idx_main_v8 (ix2 p j)) = ix1 j :=
    funext fun a => Fin.ext (by match a with | ⟨0, _⟩ => rfl)
  simp only [e1, e2, e3, concat_row]
  rfl

/-- Row `p` of the second hidden layer, from row `p` of the first. -/
theorem hidden2_row (p : Fin 100000) (j : Fin 256) :
    val_main_v15 (F := Ideal) x0 x1 x2 x3 x4 x5 x6 (ix2 p j)
      = hidden2 zeroWord (fun k => val_main_v10 (F := Ideal) x0 x1 x2 x3 x4 (ix2 p k))
          (fun k j => x5 (ix2 k j)) (fun j => x6 (ix1 j)) j := by
  rw [val_main_v15_apply, val_main_v14_apply, val_main_v11_apply, val_main_v13_apply, val_main_v12_apply,
    val_main_call1_v0_apply, val_main_call1_cst_apply]
  have e1 : ∀ k, lidx_main_v11 (ix2 p j) k = ix2 p k :=
    fun k => funext fun a => Fin.ext (by match a with | ⟨0, _⟩ => rfl | ⟨1, _⟩ => rfl)
  have e2 : ∀ k, ridx_main_v11 (ix2 p j) k = ix2 k j :=
    fun k => funext fun a => Fin.ext (by match a with | ⟨0, _⟩ => rfl | ⟨1, _⟩ => rfl)
  have e3 : idx_main_v12 (idx_main_v13 (ix2 p j)) = ix1 j :=
    funext fun a => Fin.ext (by match a with | ⟨0, _⟩ => rfl)
  simp only [e1, e2, e3]
  rfl

/-- Row `p` of the result, from row `p` of the second hidden layer. -/
theorem out_row (p : Fin 100000) (q : Fin 256) :
    val_main_v19 (F := Ideal) x0 x1 x2 x3 x4 x5 x6 x7 x8 (ix2 p q)
      = dense (fun k => val_main_v15 (F := Ideal) x0 x1 x2 x3 x4 x5 x6 (ix2 p k))
          (fun k j => x7 (ix2 k j)) (fun j => x8 (ix1 j)) q := by
  rw [val_main_v19_apply, val_main_v16_apply, val_main_v18_apply, val_main_v17_apply]
  have e1 : ∀ k, lidx_main_v16 (ix2 p q) k = ix2 p k :=
    fun k => funext fun a => Fin.ext (by match a with | ⟨0, _⟩ => rfl | ⟨1, _⟩ => rfl)
  have e2 : ∀ k, ridx_main_v16 (ix2 p q) k = ix2 k q :=
    fun k => funext fun a => Fin.ext (by match a with | ⟨0, _⟩ => rfl | ⟨1, _⟩ => rfl)
  have e3 : idx_main_v17 (idx_main_v18 (ix2 p q)) = ix1 q :=
    funext fun a => Fin.ext (by match a with | ⟨0, _⟩ => rfl)
  simp only [e1, e2, e3]
  rfl

/-- THE REFERENCE IS THE PERCEPTRON, row by row: entry (p, q) of its result is entry q of `RowMlp.mlp` of row `p` of the
    vertex features and row `p` of the aggregated edge features. -/
theorem result_row (p : Fin 100000) (q : Fin 256) :
    val_main_v19 (F := Ideal) x0 x1 x2 x3 x4 x5 x6 x7 x8 (ix2 p q)
      = mlp zeroWord (fun k => x0 (ix2 p k)) (fun k => val_main_v4 (F := Ideal) x1 x2 (ix2 p k))
          (fun k j => x3 (ix2 (upper k) j)) (fun k j => x3 (ix2 (lower k) j)) (fun j => x4 (ix1 j))
          (fun k j => x5 (ix2 k j)) (fun j => x6 (ix1 j)) (fun k j => x7 (ix2 k j)) (fun j => x8 (ix1 j)) q := by
  rw [out_row]
  unfold mlp
  congr 1
  funext k
  rw [hidden2_row]
  congr 1
  funext k'
  rw [hidden1_row, hidden1Cat_eq]

end Cert.RefRow

end
-- ==== Proof.Bridge.lean ====
/-
  The two results are one function of the arguments.

  The kernel's result array is the perceptron of every row of the arrays the region finds (`KernelFinal.result`); the
  reference's result is the perceptron of every row of its own stages (`RefRow.result_row`).  Row by row the two are the same
  function `RowMlp.mlp` of the same nine things: the row of the vertex features (an argument, which no host operation
  writes); the row of the aggregated edge features (both programs compute the same scatter-add of the same arguments, kept
  as one term); the upper and the lower half of the first weight matrix (the kernel's program slices them, the reference
  reads the concatenated product's sum in two halves); the second and third weight matrices (arguments); and the three
  biases (the kernel's program re-lays each as a row, the reference broadcasts it).
-/
import proofs.«113480_j13391708029604_1_alg».proof.Proof.KernelFinal
import proofs.«113480_j13391708029604_1_alg».proof.Proof.KernelHost
import proofs.«113480_j13391708029604_1_alg».proof.Proof.RefRow

noncomputable section

namespace Cert.Bridge

open Idealize.ShloMosaic Idealize.ShloMosaic.TcCoe Idealize.SL.Sem Idealize.ShloMosaic.ValueIdx Cert.RowMlp

/-- The two programs' aggregations of the edge features are the same term: they differ only in which program's shape
    facts they cite. -/
theorem aggr_eq (x1 : (⟨Cert.KernelIdeal.S800000x256, .f32⟩ : BufTy).Contents (Elt Ideal)) (x2 : (⟨Cert.KernelIdeal.S2x800000, .i32⟩ : BufTy).Contents (Elt Ideal)) :
    Cert.KernelHost.aggr x1 x2 = Cert.ReferenceIdeal.Read.val_main_v4 (F := Ideal) x1 x2 := rfl

variable (m : (ℓ : Loc Cert.KernelIdeal.nD Cert.KernelIdeal.τ Cert.KernelIdeal.sig) → Buf (Elt Ideal) ℓ)

/-- THE KERNEL'S RESULT ARRAY IS THE REFERENCE'S LAST STAGE of the same arguments. -/
theorem result_eq (c : Dev Cert.KernelIdeal.nD) :
    Cert.KernelFinal.result m c
      = Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨r, q, rfl⟩ : ∃ (r : Fin 100000) (q : Fin 256), i = ix2 r q := ⟨i 0, i 1, eq_ix2 i⟩
  refine (Cert.KernelFinal.G_apply _ _ _ _ _ _ _ _ _ r q).trans ?_
  refine Eq.trans ?_ (Cert.RefRow.result_row _ _ _ _ _ _ _ _ _ r q).symm
  have g0 : (fun k => (Cert.KernelIdeal.Gen.V m c Cert.KernelIdeal.main_arg0 : Cert.KernelIdeal.S100000x256.Idx → Elt Ideal .f32) (ix2 r k))
      = fun k => ((m ((c.tc : Thread Cert.KernelIdeal.nD Cert.KernelIdeal.τ).loc Cert.KernelIdeal.main_arg0)) : Cert.KernelIdeal.S100000x256.Idx → Elt Ideal .f32) (ix2 r k) := by
    rw [Cert.KernelIdeal.Gen.V_main_arg0]
  have g1 : (fun k => (Cert.KernelIdeal.Gen.V m c Cert.KernelIdeal.main_v4 : Cert.KernelIdeal.S100000x256.Idx → Elt Ideal .f32) (ix2 r k))
      = fun k => Cert.ReferenceIdeal.Read.val_main_v4 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (ix2 r k) := by
    rw [Cert.KernelHost.V_aggr, aggr_eq]
  have g2 : (fun k j => (Cert.KernelIdeal.Gen.V m c Cert.KernelIdeal.main_v5 : Cert.KernelIdeal.S256x256.Idx → Elt Ideal .f32) (ix2 k j))
      = fun k j => ((m ((c.tc : Thread Cert.KernelIdeal.nD Cert.KernelIdeal.τ).loc Cert.KernelIdeal.main_arg3)) : Cert.KernelIdeal.S512x256.Idx → Elt Ideal .f32) (ix2 (upper k) j) :=
    funext fun k => funext fun j => Cert.KernelHost.V_upper m c k j
  have g3 : (fun k j => (Cert.KernelIdeal.Gen.V m c Cert.KernelIdeal.main_v6 : Cert.KernelIdeal.S256x256.Idx → Elt Ideal .f32) (ix2 k j))
      = fun k j => ((m ((c.tc : Thread Cert.KernelIdeal.nD Cert.KernelIdeal.τ).loc Cert.KernelIdeal.main_arg3)) : Cert.KernelIdeal.S512x256.Idx → Elt Ideal .f32) (ix2 (lower k) j) :=
    funext fun k => funext fun j => Cert.KernelHost.V_lower m c k j
  have g4 : (fun j => (Cert.KernelIdeal.Gen.V m c Cert.KernelIdeal.main_v7 : Cert.KernelIdeal.S1x256.Idx → Elt Ideal .f32) (ix2 (0 : Fin 1) j))
      = fun j => ((m ((c.tc : Thread Cert.KernelIdeal.nD Cert.KernelIdeal.τ).loc Cert.KernelIdeal.main_arg4)) : Cert.KernelIdeal.S256.Idx → Elt Ideal .f32) (ix1 j) :=
    funext fun j => Cert.KernelHost.V_bias1 m c j
  have g5 : (fun k j => (Cert.KernelIdeal.Gen.V m c Cert.KernelIdeal.main_arg5 : Cert.KernelIdeal.S256x256.Idx → Elt Ideal .f32) (ix2 k j))
      = fun k j => ((m ((c.tc : Thread Cert.KernelIdeal.nD Cert.KernelIdeal.τ).loc Cert.KernelIdeal.main_arg5)) : Cert.KernelIdeal.S256x256.Idx → Elt Ideal .f32) (ix2 k j) := by
    rw [Cert.KernelIdeal.Gen.V_main_arg5]
  have g6 : (fun j => (Cert.KernelIdeal.Gen.V m c Cert.KernelIdeal.main_v8 : Cert.KernelIdeal.S1x256.Idx → Elt Ideal .f32) (ix2 (0 : Fin 1) j))
      = fun j => ((m ((c.tc : Thread Cert.KernelIdeal.nD Cert.KernelIdeal.τ).loc Cert.KernelIdeal.main_arg6)) : Cert.KernelIdeal.S256.Idx → Elt Ideal .f32) (ix1 j) :=
    funext fun j => Cert.KernelHost.V_bias2 m c j
  have g7 : (fun k j => (Cert.KernelIdeal.Gen.V m c Cert.KernelIdeal.main_arg7 : Cert.KernelIdeal.S256x256.Idx → Elt Ideal .f32) (ix2 k j))
      = fun k j => ((m ((c.tc : Thread Cert.KernelIdeal.nD Cert.KernelIdeal.τ).loc Cert.KernelIdeal.main_arg7)) : Cert.KernelIdeal.S256x256.Idx → Elt Ideal .f32) (ix2 k j) := by
    rw [Cert.KernelIdeal.Gen.V_main_arg7]
  have g8 : (fun j => (Cert.KernelIdeal.Gen.V m c Cert.KernelIdeal.main_v9 : Cert.KernelIdeal.S1x256.Idx → Elt Ideal .f32) (ix2 (0 : Fin 1) j))
      = fun j => ((m ((c.tc : Thread Cert.KernelIdeal.nD Cert.KernelIdeal.τ).loc Cert.KernelIdeal.main_arg8)) : Cert.KernelIdeal.S256.Idx → Elt Ideal .f32) (ix1 j) :=
    funext fun j => Cert.KernelHost.V_bias3 m c j
  rw [g0, g1, g2, g3, g4, g5, g6, g7, g8]

end Cert.Bridge

end
-- ==== Proof.lean ====
/-
  The certificate of a fused three-layer perceptron over graph vertices against its plain reference.

  Both programs first aggregate the edge features onto the receiving vertices by the same scatter-add.  The reference then
  concatenates each vertex's features with its aggregate into a row of length 512, multiplies by the 512 × 256 first weight
  matrix, adds the bias and takes the maximum against zero; two more layers with 256 × 256 matrices follow, the last
  without a maximum.  The kernel tiles the 100000 vertices into 50 blocks of 2000 rows, never builds the concatenation but
  multiplies the two halves of each row by the two halves of the first weight matrix and adds the products, rounds its
  matrix operands to a shorter float format, and keeps the hidden layers of a block on chip.

  Over the extended reals a change of float format is the identity and a matrix product is the exact sum, so each row of
  both results is the same function of that vertex's two feature rows and the weights (`RowMlp.mlp`); the one law between
  the two texts is that a sum over 512 indices is the sum over the first 256 plus the sum over the last 256, which holds
  for any extended reals, so the precondition that the inputs be finite is never opened.  The kernel's frame, its
  idealization's frame and the run of each block are generated modules (as are the reference's run and its stages read at
  an index); written by hand are the row function and its law, the block and the stages read as that function, the
  blocks assembled into the array, the host-written windows read back, and the comparison of the two.
  The idealization rewrote nothing, so there is nothing to preserve beyond `True`.
-/
import proofs.«113480_j13391708029604_1_alg».proof.Defs
import proofs.«113480_j13391708029604_1_alg».proof.Proof.Gen.Kernel
import proofs.«113480_j13391708029604_1_alg».proof.Proof.Gen.Kernel.Frame
import proofs.«113480_j13391708029604_1_alg».proof.Proof.Gen.KernelIdeal
import proofs.«113480_j13391708029604_1_alg».proof.Proof.Gen.KernelIdeal.Frame
import proofs.«113480_j13391708029604_1_alg».proof.Proof.Gen.KernelIdeal.Value
import proofs.«113480_j13391708029604_1_alg».proof.Proof.Gen.ReferenceIdeal
import proofs.«113480_j13391708029604_1_alg».proof.Proof.Gen.ReferenceIdeal.Run
import proofs.«113480_j13391708029604_1_alg».proof.Proof.Gen.ReferenceIdeal.Read
import proofs.«113480_j13391708029604_1_alg».proof.Proof.Gen.Pre_finite_inputs
import proofs.«113480_j13391708029604_1_alg».proof.Proof.Bridge

noncomputable section

namespace Cert.Proof

open Idealize.ShloMosaic Idealize.ShloMosaic.TcCoe Idealize.SL.Sem

/-- The printed kernel runs to the end and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments the kernel's result array ends at the perceptron of every row
    (`KernelFinal.run`) and the reference's at its last stage of the same arguments, which is the same array
    (`Bridge.result_eq`). -/
theorem algebraic : Cert.algebraic_KernelIdeal_ReferenceIdeal := by
  intro m ρ m' ρ' _ hagree
  refine ⟨fun c => Cert.KernelFinal.result m c, Cert.KernelFinal.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8, Cert.ReferenceIdeal.Read.val_main_v19_eq]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
